-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x32x32 : Shape := ⟨4, ![32, 256, 32, 32]⟩
abbrev S2000x256 : Shape := ⟨2, ![2000, 256]⟩
abbrev S_ : Shape := ⟨0, ![]⟩

class Facts : Prop where
  bcast_S_S32x256x32x32 : S_.BroadcastsInDim S32x256x32x32 (![] : Fin 0 → Fin S32x256x32x32.rank)
  reducesTo_S32x256x32x32_S_d0_1_2_3 : S32x256x32x32.ReducesTo [0, 1, 2, 3] S_
  h_S_ : 0 < S_.numel
  bcast_S_S2000x256 : S_.BroadcastsInDim S2000x256 (![] : Fin 0 → Fin S2000x256.rank)
  reducesTo_S2000x256_S_d0_1 : S2000x256.ReducesTo [0, 1] S_

variable [Facts]

def fn {F : FTy → Type} [FloatOps F] (main_arg0 : FVec F S32x256x32x32 .f32) (main_arg1 : FVec F S2000x256 .f32) : IVec S_ 1 :=
  let main_v0 : FVec F S32x256x32x32 .f32 := Host.absf main_arg0
  let main_cst : FVec F S_ .f32 := constant S_ .f32 0x7F800000#32
  let main_v1 : FVec F S32x256x32x32 .f32 := broadcastInDim S32x256x32x32 ![] bcast_S_S32x256x32x32 main_cst
  let main_v2 : IVec S32x256x32x32 1 := cmpf .olt main_v0 main_v1
  let main_c : IVec S_ 1 := constantI S_ 1 1#1
  let main_v3 : IVec S_ 1 := (fun x v => Host.reduce IntOp.andi x v reducesTo_S32x256x32x32_S_d0_1_2_3 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  main_v8
-- ==== Kernel.lean ====
abbrev S32x256x32x32 : Shape := ⟨4, ![32, 256, 32, 32]⟩
abbrev S2000x256 : Shape := ⟨2, ![2000, 256]⟩
abbrev S32x32x32x256 : Shape := ⟨4, ![32, 32, 32, 256]⟩
abbrev S32768x256 : Shape := ⟨2, ![32768, 256]⟩
abbrev S32768x2000 : Shape := ⟨2, ![32768, 2000]⟩
abbrev S1024x256 : Shape := ⟨2, ![1024, 256]⟩
abbrev S1024x2000 : Shape := ⟨2, ![1024, 2000]⟩
abbrev S1024 : Shape := ⟨1, ![1024]⟩
abbrev S1024x1 : Shape := ⟨2, ![1024, 1]⟩
abbrev S32x32x32x2000 : Shape := ⟨4, ![32, 32, 32, 2000]⟩
abbrev S32x2000x32x32 : Shape := ⟨4, ![32, 2000, 32, 32]⟩

abbrev nBuf : Space → Nat
  | .hbm => 10
  | .vmem => 7
  | .smem => 0
  | _ => 0

abbrev bufTy : (tb : Table) → Fin (tcTables nBuf tb) → BufTy
  | .hbm, ⟨0, _⟩ => ⟨S32x256x32x32, .f32⟩
  | .hbm, ⟨1, _⟩ => ⟨S2000x256, .f32⟩
  | .hbm, ⟨2, _⟩ => ⟨S32x32x32x256, .f32⟩
  | .hbm, ⟨3, _⟩ => ⟨S32768x256, .f32⟩
  | .hbm, ⟨4, _⟩ => ⟨S32768x2000, .f32⟩
  | .hbm, ⟨5, _⟩ => ⟨S32768x256, .f32⟩
  | .hbm, ⟨6, _⟩ => ⟨S32x32x32x256, .f32⟩
  | .hbm, ⟨7, _⟩ => ⟨S32x256x32x32, .f32⟩
  | .hbm, ⟨8, _⟩ => ⟨S32x32x32x2000, .f32⟩
  | .hbm, ⟨9, _⟩ => ⟨S32x2000x32x32, .f32⟩
  | .local _ .vmem, ⟨0, _⟩ => ⟨S1024x256, .f32⟩
  | .local _ .vmem, ⟨1, _⟩ => ⟨S1024x256, .f32⟩
  | .local _ .vmem, ⟨2, _⟩ => ⟨S2000x256, .f32⟩
  | .local _ .vmem, ⟨3, _⟩ => ⟨S1024x2000, .f32⟩
  | .local _ .vmem, ⟨4, _⟩ => ⟨S1024x2000, .f32⟩
  | .local _ .vmem, ⟨5, _⟩ => ⟨S1024x256, .f32⟩
  | .local _ .vmem, ⟨6, _⟩ => ⟨S1024x256, .f32⟩
  | _, _ => ⟨S32x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x256x32x32_S32x32x32x256_0_2_3_1 : S32x256x32x32.Transposes [0, 2, 3, 1] S32x32x32x256
  shapeCasts_S32x32x32x256_S32768x256 : S32x32x32x256.ShapeCasts S32768x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2000x256_S2000x256_0_0 : ∀ a, (![0, 0] : Fin 2 → Nat) a + S2000x256.size a ≤ S2000x256.size a
  h_S2000x256 : 0 < S2000x256.numel
  reduces_S1024x2000_S1024 : S1024x2000.Reduces [1] S1024
  shapeCasts_S1024_S1024x1 : S1024.ShapeCasts S1024x1
  broadcasts_S1024x1_S1024x2000 : S1024x1.Broadcasts S1024x2000
  inb_S1024x2000_S1024x2000_0_0 : ∀ a, (![0, 0] : Fin 2 → Nat) a + S1024x2000.size a ≤ S1024x2000.size a
  h_S1024x2000 : 0 < S1024x2000.numel
  shapeCasts_S32768x256_S32x32x32x256 : S32768x256.ShapeCasts S32x32x32x256
  transposes_S32x32x32x256_S32x256x32x32_0_3_1_2 : S32x32x32x256.Transposes [0, 3, 1, 2] S32x256x32x32
  shapeCasts_S32768x2000_S32x32x32x2000 : S32768x2000.ShapeCasts S32x32x32x2000
  transposes_S32x32x32x2000_S32x2000x32x32_0_3_1_2 : S32x32x32x2000.Transposes [0, 3, 1, 2] S32x2000x32x32
  dot_S1024x256_S2000x256_S1024x2000_1_1_0_0_n_n_wf : DotDims.WF S1024x256 S2000x256 S1024x2000 [1] [1] [0] [0] [] []
  dot_S1024x2000_S2000x256_S1024x256_1_0_0_1_n_n_wf : DotDims.WF S1024x2000 S2000x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .f32 = 32 ∨ (Rect.block (s := S2000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2000.size a ≤ S32768x2000.size a
  hwx0_2 : ∀ i : grid0.Coords, EltTy.bits .f32 = 32 ∨ (Rect.block (s := S32768x2000) S1024x2000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S32768x256.size a
  hwx0_3 : ∀ i : grid0.Coords, EltTy.bits .f32 = 32 ∨ (Rect.block (s := S32768x256) S1024x256.size (cc0_transform_3 i) (hinb0_3 i)).WholeWords (EltTy.packing .f32)

variable [Facts₀]

def dot_S1024x256_S2000x256_S1024x2000_1_1_0_0_n_n : DotDims S1024x256 S2000x256 S1024x2000 where
  lhsContracting := [1]
  rhsContracting := [1]
  lhsNonContracting := [0]
  rhsNonContracting := [0]
  lhsBatch := []
  rhsBatch := []
  wf := dot_S1024x256_S2000x256_S1024x2000_1_1_0_0_n_n_wf
def dot_S1024x2000_S2000x256_S1024x256_1_0_0_1_n_n : DotDims S1024x2000 S2000x256 S1024x256 where
  lhsContracting := [1]
  rhsContracting := [0]
  lhsNonContracting := [0]
  rhsNonContracting := [1]
  lhsBatch := []
  rhsBatch := []
  wf := dot_S1024x2000_S2000x256_S1024x256_1_0_0_1_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1024x2000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x32x32 : Shape := ⟨4, ![32, 256, 32, 32]⟩
abbrev S2000x256 : Shape := ⟨2, ![2000, 256]⟩
abbrev S32x32x32x256 : Shape := ⟨4, ![32, 32, 32, 256]⟩
abbrev S32768x256 : Shape := ⟨2, ![32768, 256]⟩
abbrev S256x2000 : Shape := ⟨2, ![256, 2000]⟩
abbrev S32768x2000 : Shape := ⟨2, ![32768, 2000]⟩
abbrev S_ : Shape := ⟨0, ![]⟩
abbrev S32768 : Shape := ⟨1, ![32768]⟩
abbrev S32768x1 : Shape := ⟨2, ![32768, 1]⟩
abbrev S32x32x32x2000 : Shape := ⟨4, ![32, 32, 32, 2000]⟩
abbrev S32x2000x32x32 : Shape := ⟨4, ![32, 2000, 32, 32]⟩

abbrev nBuf : Space → Nat
  | .hbm => 46
  | .vmem => 0
  | .smem => 0
  | _ => 0

abbrev bufTy : (tb : Table) → Fin (tcTables nBuf tb) → BufTy
  | .hbm, ⟨0, _⟩ => ⟨S32x256x32x32, .f32⟩
  | .hbm, ⟨1, _⟩ => ⟨S2000x256, .f32⟩
  | .hbm, ⟨2, _⟩ => ⟨S32x32x32x256, .f32⟩
  | .hbm, ⟨3, _⟩ => ⟨S32768x256, .f32⟩
  | .hbm, ⟨4, _⟩ => ⟨S256x2000, .f32⟩
  | .hbm, ⟨5, _⟩ => ⟨S32768x2000, .f32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768x1, .f32⟩
  | .hbm, ⟨12, _⟩ => ⟨S32768x2000, .f32⟩
  | .hbm, ⟨13, _⟩ => ⟨S32768x2000, .f32⟩
  | .hbm, ⟨14, _⟩ => ⟨S32768x2000, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S32768x2000, .f32⟩
  | .hbm, ⟨19, _⟩ => ⟨S32768x2000, .f32⟩
  | .hbm, ⟨20, _⟩ => ⟨S_, .f32⟩
  | .hbm, ⟨21, _⟩ => ⟨S32768x2000, .f32⟩
  | .hbm, ⟨22, _⟩ => ⟨S32768x2000, .f32⟩
  | .hbm, ⟨23, _⟩ => ⟨S_, .f32⟩
  | .hbm, ⟨24, _⟩ => ⟨S32768x2000, .f32⟩
  | .hbm, ⟨25, _⟩ => ⟨S32768x2000, .f32⟩
  | .hbm, ⟨26, _⟩ => ⟨S32768x2000, .f32⟩
  | .hbm, ⟨27, _⟩ => ⟨S32768x2000, .f32⟩
  | .hbm, ⟨28, _⟩ => ⟨S_, .f32⟩
  | .hbm, ⟨29, _⟩ => ⟨S32768x2000, .f32⟩
  | .hbm, ⟨30, _⟩ => ⟨S32768x2000, .f32⟩
  | .hbm, ⟨31, _⟩ => ⟨S32768x2000, .f32⟩
  | .hbm, ⟨32, _⟩ => ⟨S32768x2000, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x2000, .f32⟩
  | .hbm, ⟨40, _⟩ => ⟨S32768x2000, .f32⟩
  | .hbm, ⟨41, _⟩ => ⟨S32768x256, .f32⟩
  | .hbm, ⟨42, _⟩ => ⟨S32x32x32x256, .f32⟩
  | .hbm, ⟨43, _⟩ => ⟨S32x256x32x32, .f32⟩
  | .hbm, ⟨44, _⟩ => ⟨S32x32x32x2000, .f32⟩
  | .hbm, ⟨45, _⟩ => ⟨S32x2000x32x32, .f32⟩
  | _, _ => ⟨S32x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  transposes_S32x256x32x32_S32x32x32x256_0_2_3_1 : S32x256x32x32.Transposes [0, 2, 3, 1] S32x32x32x256
  shapeCasts_S32x32x32x256_S32768x256 : S32x32x32x256.ShapeCasts S32768x256
  transposes_S2000x256_S256x2000_1_0 : S2000x256.Transposes [1, 0] S256x2000
  reducesTo_S32768x2000_S32768_d1 : S32768x2000.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x2000_0_1 : S32768x1.BroadcastsInDim S32768x2000 (![0, 1] : Fin 2 → Fin S32768x2000.rank)
  bcast_S_S32768x2000 : S_.BroadcastsInDim S32768x2000 (![] : Fin 0 → Fin S32768x2000.rank)
  bcast_S_S32768x1 : S_.BroadcastsInDim S32768x1 (![] : Fin 0 → Fin S32768x1.rank)
  shapeCasts_S32768x256_S32x32x32x256 : S32768x256.ShapeCasts S32x32x32x256
  transposes_S32x32x32x256_S32x256x32x32_0_3_1_2 : S32x32x32x256.Transposes [0, 3, 1, 2] S32x256x32x32
  shapeCasts_S32768x2000_S32x32x32x2000 : S32768x2000.ShapeCasts S32x32x32x2000
  transposes_S32x32x32x2000_S32x2000x32x32_0_3_1_2 : S32x32x32x2000.Transposes [0, 3, 1, 2] S32x2000x32x32
  dot_S32768x256_S256x2000_S32768x2000_1_0_0_1_n_n_wf : DotDims.WF S32768x256 S256x2000 S32768x2000 [1] [0] [0] [1] [] []
  dot_S32768x2000_S2000x256_S32768x256_1_0_0_1_n_n_wf : DotDims.WF S32768x2000 S2000x256 S32768x256 [1] [0] [0] [1] [] []

variable [Facts₀]

def dot_S32768x256_S256x2000_S32768x2000_1_0_0_1_n_n : DotDims S32768x256 S256x2000 S32768x2000 where
  lhsContracting := [1]
  rhsContracting := [0]
  lhsNonContracting := [0]
  rhsNonContracting := [1]
  lhsBatch := []
  rhsBatch := []
  wf := dot_S32768x256_S256x2000_S32768x2000_1_0_0_1_n_n_wf
def dot_S32768x2000_S2000x256_S32768x256_1_0_0_1_n_n : DotDims S32768x2000 S2000x256 S32768x256 where
  lhsContracting := [1]
  rhsContracting := [0]
  lhsNonContracting := [0]
  rhsNonContracting := [1]
  lhsBatch := []
  rhsBatch := []
  wf := dot_S32768x2000_S2000x256_S32768x256_1_0_0_1_n_n_wf

class Facts : Prop extends Facts₀ where

variable [Facts]
-- ==== Proof.LibDenseNT.lean ====
/-
  A matrix product against a transposed right operand, on the extended reals, index by index.

  `[M, K] × [N, K] → [M, N]`, both operands contracted along their second axis (the `q · kᵀ` of attention scores, written
  without materialising the transpose): entry `(p, q)` is `∑ k, x(p, k) · w(q, k)`.  Stated for the matrix unit's product into
  a zero accumulator, at any contraction precision, and for the host's general dot product.  No finiteness is needed: only
  the definitions of the operations and a re-indexing of the sum.
-/
import Idealize.ShloMosaic.PureOps.Ideal
import Idealize.ShloMosaic.PureOps.Ideal.Laws
import Idealize.ShloMosaic.Lib.ValueIdx

noncomputable section

namespace Cert.Lib.DenseNT

open Idealize.ShloMosaic Idealize.ShloMosaic.ValueIdx
open scoped BigOperators

/-- Row `p` of `x` against row `q` of `w`. -/
def rowRowDot {M K N : ℕ} (x : (⟨2, ![M, K]⟩ : Shape).Idx → EReal) (w : (⟨2, ![N, K]⟩ : Shape).Idx → EReal)
    (p : Fin M) (q : Fin N) : EReal :=
  ∑ k : Fin K, x (ix2 p k) * w (ix2 q k)

variable {M K N : ℕ} (D : DotDims ⟨2, ![M, K]⟩ ⟨2, ![N, K]⟩ ⟨2, ![M, N]⟩)
  (hlc : D.lhsContracting = [1]) (hrc : D.rhsContracting = [1])
  (hln : D.lhsNonContracting = [0]) (hrn : D.rhsNonContracting = [0])
  (hlb : D.lhsBatch = []) (hrb : D.rhsBatch = [])

include hlc in
theorem nt_rank : D.contr.rank = 1 := by rw [D.rank_contr, hlc]; rfl

include hlc in
theorem nt_size : D.contr.size ⟨0, by rw [nt_rank D hlc]; exact Nat.one_pos⟩ = K := by
  have := D.size_contr 0 (by rw [hlc]; exact Nat.one_pos)
  rw [this]
  simp [hlc]

include hln hlb in
/-- The left operand's free coordinate is the result's row. -/
theorem nt_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate, its first, is the result's column. -/
theorem nt_rhs0 (j : (⟨2, ![M, N]⟩ : Shape).Idx) (k : D.contr.Idx) : (D.rhsIdx j k 0).val = (j 1).val := by
  have hb : (0 : Fin 2) ∉ D.rhsBatch := by rw [hrb]; simp
  have hn : (0 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction at entry `(p, q)` is row `p` of `x` against row `q` of `w`. -/
theorem nt_sum (f : (⟨2, ![M, K]⟩ : Shape).Idx → EReal) (g : (⟨2, ![N, K]⟩ : Shape).Idx → EReal) (p : Fin M) (q : Fin N) :
    ∑ k : D.contr.Idx, f (D.lhsIdx (ix2 p q) k) * g (D.rhsIdx (ix2 p q) k) = rowRowDot f g p q := by
  unfold rowRowDot
  rw [← Equiv.sum_comp (contrEquiv1 D K (nt_rank D hlc) (nt_size D hlc)).symm]
  refine Finset.sum_congr rfl fun k _ => ?_
  have hk := contrEquiv1_symm_val D K (nt_rank D hlc) (nt_size D hlc) k
  have el : D.lhsIdx (ix2 p q) ((contrEquiv1 D K (nt_rank D hlc) (nt_size D hlc)).symm k) = ix2 p k := by
    funext a; apply Fin.ext
    match a with
    | ⟨0, _⟩ => exact nt_lhs0 D hln hlb (ix2 p q) _
    | ⟨1, _⟩ => exact (D.lhsIdx_val_of_single hlc (ix2 p q) _).trans hk
  have er : D.rhsIdx (ix2 p q) ((contrEquiv1 D K (nt_rank D hlc) (nt_size D hlc)).symm k) = ix2 q k := by
    funext a; apply Fin.ext
    match a with
    | ⟨0, _⟩ => exact nt_rhs0 D hln hrn hlb hrb (ix2 p q) _
    | ⟨1, _⟩ => exact (D.rhsIdx_val_of_single hrc (ix2 p q) _).trans hk
  rw [el, er]

include hlc hrc hln hrn hlb hrb in
/-- The matrix unit's product into a zero accumulator, at entry `(p, q)`, whatever the contraction precision. -/
theorem matmul_zero_at {φ₁ φ₂ : FTy} (prec : Option ContractPrecision) (x : FVec Ideal ⟨2, ![M, K]⟩ φ₁) (w : FVec Ideal ⟨2, ![N, K]⟩ φ₂)
    (p : Fin M) (q : Fin N) :
    matmul D prec x w (constant ⟨2, ![M, N]⟩ .f32 0x00000000#32) (ix2 p q) = rowRowDot x w p q :=
  (Ideal.matmul_constant_zero_apply D prec x w (ix2 p q)).trans (nt_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![N, K]⟩ φ₂) (p : Fin M) (q : Fin N) :
    Host.dotGeneral D none x w (ix2 p q) = rowRowDot x w p q :=
  (Ideal.dotGeneral_apply D none .single x w (ix2 p q)).trans (nt_sum D hlc hrc hln hrn hlb hrb x w p q)

end Cert.Lib.DenseNT

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.MemoryAddressing.lean ====
/-
  Memory addressing, on the extended reals.

  A bank of M memory slots, each a vector of C features (the rows of `w`), is addressed by T query vectors (the rows of `x`).
  For one query the logits are its inner products with the slots, s(q) = ∑ j, x(j) · w(q, j).  The addressing weights of the
  query are obtained from the logits in three steps, each along the M slots:
    • the shifted softmax   p(k) = exp(s(k) − μ) / ∑ k', exp(s(k') − μ),   μ the largest logit (joined with −∞);
    • the hard shrinkage    h(k) = max(p(k) − λ, 0) · p(k) / (|p(k) − λ| + ε);
    • the L¹ normalisation  a(k) = h(k) / max(∑ k', |h(k')|, ε),
  and the query reads the bank with those weights: y(c) = ∑ k, a(k) · w(k, c).
  The threshold λ and the guard ε are kept as the binary32 words the programs carry; only their being the same words on both
  sides matters.  Everything here is a definition or a congruence: no law of the extended reals is used, so no finiteness.
-/
import Idealize.ShloMosaic.PureOps.Ideal
import Idealize.ShloMosaic.PureOps.Ideal.Laws
import Idealize.ShloMosaic.Lib.ValueIdx
import proofs.«119920_j9637906612316_1_alg».proof.Proof.LibDenseNT
import proofs.«119920_j9637906612316_1_alg».proof.Proof.LibDense

noncomputable section

namespace Cert.MemoryAddressing

open Idealize.ShloMosaic Idealize.ShloMosaic.ValueIdx
open Cert.Lib.DenseNT (rowRowDot)
open Cert.Lib.Dense (rowDot)
open scoped BigOperators

/-- The magnitude of an extended real. -/
def mag (x : EReal) : EReal := max x (-x)

/-- The shift of a row of logits: its largest entry, joined with the word of −∞ the programs start the maximum from. -/
def shift {b : ℕ} (s : Fin b → EReal) : EReal :=
  max (Ideal.ofBits .f32 0xFF800000#32) ((Finset.univ : Finset (Fin b)).sup s)

/-- The shifted softmax of a row of logits. -/
def soft {b : ℕ} (s : Fin b → EReal) (k : Fin b) : EReal :=
  Ideal.div (Ideal.exp (s k - shift s)) (∑ k' : Fin b, Ideal.exp (s k' - shift s))

/-- The hard shrinkage of one weight: max(p − λ, 0) · p / (|p − λ| + ε). -/
def shrink (p : EReal) : EReal :=
  Ideal.div (max (p - Ideal.ofBits .f32 0x3B23D70A#32) (Ideal.ofBits .f32 0x00000000#32) * p)
    (mag (p - Ideal.ofBits .f32 0x3B23D70A#32) + Ideal.ofBits .f32 0x2B8CBCCC#32)

/-- The addressing weights of a row of logits: softmax, hard shrinkage, L¹ normalisation. -/
def addressRow {b : ℕ} (s : Fin b → EReal) (k : Fin b) : EReal :=
  Ideal.div (shrink (soft s k)) (max (∑ k' : Fin b, mag (shrink (soft s k'))) (Ideal.ofBits .f32 0x2B8CBCCC#32))

/-- The addressing weights of every query: entry (r, k) is the weight query r gives slot k. -/
def addressing {T C M : ℕ} (x : (⟨2, ![T, C]⟩ : Shape).Idx → EReal) (w : (⟨2, ![M, C]⟩ : Shape).Idx → EReal) :
    (⟨2, ![T, M]⟩ : Shape).Idx → EReal :=
  fun i => addressRow (fun q => rowRowDot x w (i 0) q) (i 1)

/-- What every query reads from the bank: entry (r, c) is ∑ k, a(r, k) · w(k, c). -/
def readout {T C M : ℕ} (x : (⟨2, ![T, C]⟩ : Shape).Idx → EReal) (w : (⟨2, ![M, C]⟩ : Shape).Idx → EReal) :
    (⟨2, ![T, C]⟩ : Shape).Idx → EReal :=
  fun i => rowDot (addressing x w) w (i 0) (i 1)

theorem addressing_ix2 {T C M : ℕ} (x : (⟨2, ![T, C]⟩ : Shape).Idx → EReal) (w : (⟨2, ![M, C]⟩ : Shape).Idx → EReal)
    (r : Fin T) (k : Fin M) : addressing x w (ix2 r k) = addressRow (fun q => rowRowDot x w r q) k := rfl

theorem readout_ix2 {T C M : ℕ} (x : (⟨2, ![T, C]⟩ : Shape).Idx → EReal) (w : (⟨2, ![M, C]⟩ : Shape).Idx → EReal)
    (r : Fin T) (c : Fin C) : readout x w (ix2 r c) = ∑ k : Fin M, addressing x w (ix2 r k) * w (ix2 k c) := rfl

/-- A query's weights depend on its own row of `x` only: two arrays of queries that agree on a row give that row the same
    weights (a tile of the queries is addressed as the whole array is). -/
theorem addressing_row {T T' C M : ℕ} (x : (⟨2, ![T, C]⟩ : Shape).Idx → EReal) (x' : (⟨2, ![T', C]⟩ : Shape).Idx → EReal)
    (w : (⟨2, ![M, C]⟩ : Shape).Idx → EReal) (r : Fin T) (r' : Fin T') (h : ∀ j : Fin C, x (ix2 r j) = x' (ix2 r' j))
    (k : Fin M) : addressing x w (ix2 r k) = addressing x' w (ix2 r' k) := by
  rw [addressing_ix2, addressing_ix2]
  have e : (fun q => rowRowDot x w r q) = fun q => rowRowDot x' w r' q :=
    funext fun q => Finset.sum_congr rfl fun j _ => by rw [h j]
  rw [e]

/-- And so does what it reads. -/
theorem readout_row {T T' C M : ℕ} (x : (⟨2, ![T, C]⟩ : Shape).Idx → EReal) (x' : (⟨2, ![T', C]⟩ : Shape).Idx → EReal)
    (w : (⟨2, ![M, C]⟩ : Shape).Idx → EReal) (r : Fin T) (r' : Fin T') (h : ∀ j : Fin C, x (ix2 r j) = x' (ix2 r' j))
    (c : Fin C) : readout x w (ix2 r c) = readout x' w (ix2 r' c) := by
  rw [readout_ix2, readout_ix2]
  exact Finset.sum_congr rfl fun k _ => by rw [addressing_row x x' w r r' h k]

end Cert.MemoryAddressing

end
-- ==== Proof.LibMinMaxInf.lean ====
/-
  `<minimumf>` and `<maximumf>` reductions read at the ideal instance as infima and suprema.

  Over the extended reals `minimumf` is `min` and `maximumf` is `max`, so a reduction from an initial value `b` over a finite
  family `f` is `b ⊓ ⨅ f` (`b ⊔ ⨆ f`), whatever the order the program folds in. Stated here for a kernel's
  `vector.multi_reduction` over one axis and for the host's one-operand `stablehlo.reduce` over one axis, at any rank and extents,
  with the two literals such reductions start from (`+inf` is `⊤`, `-inf` is `⊥`). A kernel that reduces lanes, then rows, then
  keeps a running minimum across grid points computes the same infimum as one reduction over the flattened axis: the last
  lemmas re-index an infimum through a bijection, over a product, and over `Fin (m * n)` as `Fin m × Fin n`
  (row `i`, column `j` at `j + n * i`).
-/
import Idealize.ShloMosaic.PureOps.Ideal
import Idealize.ShloMosaic.PureOps.Ideal.Laws
import Idealize.ShloMosaic.PureOps.Reduce
import Idealize.ShloMosaic.PureOps.Contract

noncomputable section

namespace Cert.Lib.MinMaxInf

open Idealize.ShloMosaic

variable {φ : FTy}

/-- The f32 pattern of `+inf` is the top of the extended reals. -/
theorem ofBits_posInf_f32 : Ideal.ofBits .f32 0x7F800000#32 = (⊤ : EReal) := by simp [Ideal.ofBits, Ideal.ieee]
/-- The f32 pattern of `-inf` is the bottom of the extended reals. -/
theorem ofBits_negInf_f32 : Ideal.ofBits .f32 0xFF800000#32 = (⊥ : EReal) := by simp [Ideal.ofBits, Ideal.ieee]

open Classical in
/-- A fold of `min` from `b` over a finite family is `b` met with the family's infimum. -/
theorem fold_min_eq_inf {ι : Type*} (s : Finset ι) (b : EReal) (f : ι → EReal) : s.fold min b f = b ⊓ s.inf f := by
  induction s using Finset.induction_on with
  | empty => simp
  | insert a s ha ih => rw [Finset.fold_insert ha, Finset.inf_insert, ih]; exact inf_left_comm _ _ _

open Classical in
/-- A fold of `max` from `b` over a finite family is `b` joined with the family's supremum. -/
theorem fold_max_eq_sup {ι : Type*} (s : Finset ι) (b : EReal) (f : ι → EReal) : s.fold max b f = b ⊔ s.sup f := by
  induction s using Finset.induction_on with
  | empty => simp
  | insert a s ha ih => rw [Finset.fold_insert ha, Finset.sup_insert, ih]; exact sup_left_comm _ _ _

/-- A float `vector.multi_reduction <minimumf>` over one axis, at the ideal instance: the accumulator's value met with the
    infimum over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Ideal.ofBits φ acc ⊓ (Finset.univ : Finset (Fin (s.size a))).inf (src ∘ h.lift j) : EReal) := by
  rw [multiReduction_minimumf_eq_fold, h.fold_filter_drop_single _ _ src j]
  exact fold_min_eq_inf _ _ _

/-- A float `vector.multi_reduction <maximumf>` over one axis, at the ideal instance: the accumulator's value joined with the
    supremum over that axis's coordinates. -/
theorem multiReduction_maximumf_single {s t : Shape} {a : Fin s.rank} (src : FVec Ideal s φ) (acc : BitVec φ.bits)
    (h : s.Reduces [a] t) (hφ : FKind.Formats φ) (hacc : acc = FKind.maximumf.neutral φ hφ) (j : t.Idx) :
    multiReduction .maximumf [a] t src acc h hφ hacc j
      = (Ideal.ofBits φ acc ⊔ (Finset.univ : Finset (Fin (s.size a))).sup (src ∘ h.lift j) : EReal) := by
  rw [multiReduction_maximumf_eq_fold, h.fold_filter_drop_single _ _ src j]
  exact fold_max_eq_sup _ _ _

/-- The host's `stablehlo.reduce` with a `minimum` body over one axis, at the ideal instance: the initial value met with
    the infimum over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (init (Shape.Idx.first hu) ⊓ (Finset.univ : Finset (Fin (s.size a))).inf (x ∘ h.lift j) : EReal) := by
  rw [Host.reduce_eq_fold_single (FloatOps.minimumf (F := Ideal) (φ := φ)) x init h' h hu j]
  exact fold_min_eq_inf _ _ _

/-- The host's `stablehlo.reduce` with a `maximum` body over one axis, at the ideal instance: the initial value joined with
    the supremum over that axis's coordinates. -/
theorem hostReduce_maximumf_single {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (init (Shape.Idx.first hu) ⊔ (Finset.univ : Finset (Fin (s.size a))).sup (x ∘ h.lift j) : EReal) := by
  rw [Host.reduce_eq_fold_single (FloatOps.maximumf (F := Ideal) (φ := φ)) x init h' h hu j]
  exact fold_max_eq_sup _ _ _

/-! ## Re-indexing an infimum or a supremum -/

/-- An infimum over a finite type does not change under a bijection of the index. -/
theorem inf_comp_equiv {ι κ : Type*} [Fintype ι] [Fintype κ] (e : ι ≃ κ) (f : κ → EReal) :
    (Finset.univ : Finset ι).inf (f ∘ e) = (Finset.univ : Finset κ).inf f :=
  calc (Finset.univ : Finset ι).inf (f ∘ e) = ((Finset.univ : Finset ι).map e.toEmbedding).inf f := (Finset.inf_map (Finset.univ : Finset ι) e.toEmbedding f).symm
    _ = (Finset.univ : Finset κ).inf f := by rw [Finset.map_univ_equiv]

/-- A supremum over a finite type does not change under a bijection of the index. -/
theorem sup_comp_equiv {ι κ : Type*} [Fintype ι] [Fintype κ] (e : ι ≃ κ) (f : κ → EReal) :
    (Finset.univ : Finset ι).sup (f ∘ e) = (Finset.univ : Finset κ).sup f :=
  calc (Finset.univ : Finset ι).sup (f ∘ e) = ((Finset.univ : Finset ι).map e.toEmbedding).sup f := (Finset.sup_map (Finset.univ : Finset ι) e.toEmbedding f).symm
    _ = (Finset.univ : Finset κ).sup f := by rw [Finset.map_univ_equiv]

/-- The infimum over pairs is the infimum of the infima. -/
theorem inf_prod {ι κ : Type*} [Fintype ι] [Fintype κ] (f : ι × κ → EReal) :
    (Finset.univ : Finset (ι × κ)).inf f = (Finset.univ : Finset ι).inf fun a => (Finset.univ : Finset κ).inf fun b => f (a, b) := by
  rw [← Finset.univ_product_univ, Finset.inf_product_left]

/-- The supremum over pairs is the supremum of the suprema. -/
theorem sup_prod {ι κ : Type*} [Fintype ι] [Fintype κ] (f : ι × κ → EReal) :
    (Finset.univ : Finset (ι × κ)).sup f = (Finset.univ : Finset ι).sup fun a => (Finset.univ : Finset κ).sup fun b => f (a, b) := by
  rw [← Finset.univ_product_univ, Finset.sup_product_left]

/-- An infimum over `m * n` consecutive positions, taken row by row: position `j + n * i` is column `j` of row `i`
    (`finProdFinEquiv_apply_val`). What joins a reduction over a flattened axis to a reduction tile by tile. -/
theorem inf_fin_mul {m n : Nat} (f : Fin (m * n) → EReal) :
    (Finset.univ : Finset (Fin (m * n))).inf f
      = (Finset.univ : Finset (Fin m)).inf fun i => (Finset.univ : Finset (Fin n)).inf fun j => f (finProdFinEquiv (i, j)) := by
  rw [← inf_comp_equiv finProdFinEquiv f, inf_prod]; rfl

/-- A supremum over `m * n` consecutive positions, taken row by row. -/
theorem sup_fin_mul {m n : Nat} (f : Fin (m * n) → EReal) :
    (Finset.univ : Finset (Fin (m * n))).sup f
      = (Finset.univ : Finset (Fin m)).sup fun i => (Finset.univ : Finset (Fin n)).sup fun j => f (finProdFinEquiv (i, j)) := by
  rw [← sup_comp_equiv finProdFinEquiv f, sup_prod]; rfl

end Cert.Lib.MinMaxInf

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibSoftmaxRows.lean ====
/-
  The softmax of each row of a matrix, in its shifted form, on the extended reals, read at an index.

  For a row `s` of `b` extended reals the shifted softmax is
      softmaxRow s k = exp (s k − sup s) / ∑ k', exp (s k' − sup s),
  the supremum over the finite family, the quotient the extended reals' division.  A kernel computes it over an `[a, b]`
  tile with two lane reductions whose results are kept as a column `[a, 1]` and spread back over the `b` columns
  (`jnp.max(s, axis=-1, keepdims=True)`, `jnp.sum(p, axis=-1, keepdims=True)`): this file reads that chain at entry `(r, k)`
  as `softmaxRow` of row `r`.  Also here: a row maximum from `-inf` is the row's supremum, for the kernel's lane
  reduction of a matrix and for the host's reduction of a rank-3 array along its last axis; and a reduced vector kept
  as a column and spread over the columns reads, at `(r, k)`, the vector's entry `r`.  No finiteness is needed.
-/
import proofs.«119920_j9637906612316_1_alg».proof.Proof.LibMinMaxInf
import proofs.«119920_j9637906612316_1_alg».proof.Proof.LibKeepdims

noncomputable section

namespace Cert.Lib.SoftmaxRows

open Idealize.ShloMosaic Idealize.ShloMosaic.ValueIdx
open scoped BigOperators

/-- The shifted softmax of a finite family of extended reals. -/
def softmaxRow {b : ℕ} (s : Fin b → EReal) (k : Fin b) : EReal :=
  Ideal.div (Ideal.exp (s k - (Finset.univ : Finset (Fin b)).sup s))
    (∑ k' : Fin b, Ideal.exp (s k' - (Finset.univ : Finset (Fin b)).sup s))

/-- A vector `[a]` kept as a column `[a, 1]` and spread over `b` columns reads, at `(r, k)`, its entry `r`. -/
theorem spread_apply {α : Type} {a b : ℕ} (v : (⟨1, ![a]⟩ : Shape).Idx → α)
    (hcast : (⟨1, ![a]⟩ : Shape).ShapeCasts ⟨2, ![a, 1]⟩) (hb : (⟨2, ![a, 1]⟩ : Shape).Broadcasts ⟨2, ![a, b]⟩)
    (r : Fin a) (k : Fin b) :
    broadcastTo ⟨2, ![a, b]⟩ (shapeCast ⟨2, ![a, 1]⟩ v hcast) hb (ix2 r k) = v (ix1 r) :=
  (Cert.Lib.Keepdims.broadcastTo_a1_ab_apply _ hb r k).trans (Cert.Lib.Keepdims.shapeCast_a_a1_apply v hcast r 0)

/-- The lane maximum of an `[a, b]` matrix along its second axis, started from `-inf`, is at row `i` the supremum of that
    row's entries. -/
theorem rowMax_apply {a b : ℕ} (src : FVec Ideal ⟨2, ![a, b]⟩ .f32)
    (h : (⟨2, ![a, b]⟩ : Shape).Reduces [(1 : Fin 2)] ⟨1, ![a]⟩) (hφ : FKind.Formats .f32)
    (hacc : (0xFF800000#32 : BitVec 32) = FKind.maximumf.neutral .f32 hφ) (i : Fin a) :
    multiReduction .maximumf [(1 : Fin 2)] ⟨1, ![a]⟩ src 0xFF800000#32 h hφ hacc (ix1 i)
      = (Finset.univ : Finset (Fin b)).sup fun k => src (ix2 i k) := by
  refine (Cert.Lib.MinMaxInf.multiReduction_maximumf_single src _ h hφ hacc (ix1 i)).trans ?_
  rw [Cert.Lib.MinMaxInf.ofBits_negInf_f32, bot_sup_eq]
  exact Finset.sup_congr rfl fun k _ => congrArg src (funext fun c => Fin.ext (by
    match c with
    | ⟨0, _⟩ => rfl
    | ⟨1, _⟩ => rfl))

/-- The host's maximum of an `[n, a, b]` array along its last axis, started from `-inf`, is at `(p, i)` the supremum of the
    entries `(p, i, k)`. -/
theorem hostMaxLast3_apply {n a b : ℕ} {u : Shape} (x : FVec Ideal ⟨3, ![n, a, b]⟩ .f32) (init : FVec Ideal u .f32)
    (h' : (⟨3, ![n, a, b]⟩ : Shape).ReducesTo [(2 : Fin 3)] ⟨2, ![n, a]⟩)
    (h : (⟨3, ![n, a, b]⟩ : Shape).Reduces [(2 : Fin 3)] ⟨2, ![n, a]⟩) (hu : 0 < u.numel)
    (hinit : init (Shape.Idx.first hu) = Ideal.ofBits .f32 0xFF800000#32) (p : Fin n) (i : Fin a) :
    Host.reduce (FloatOps.maximumf (F := Ideal) (φ := .f32)) x init h' hu (ix2 p i)
      = (Finset.univ : Finset (Fin b)).sup fun k => x (ix3 p i k) := by
  refine (Cert.Lib.MinMaxInf.hostReduce_maximumf_single x init h' h hu (ix2 p i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl
    | ⟨2, _⟩ => rfl))

/-- The kernel's softmax of each row of an `[a, b]` tile — the row maxima and the row sums of the exponentials each kept
    as a column and spread back over the columns — reads, at `(r, k)`, the shifted softmax of row `r` at `k`. -/
theorem softmax_apply {a b : ℕ} (s : FVec Ideal ⟨2, ![a, b]⟩ .f32)
    (hred : (⟨2, ![a, b]⟩ : Shape).Reduces [(1 : Fin 2)] ⟨1, ![a]⟩)
    (hcast : (⟨1, ![a]⟩ : Shape).ShapeCasts ⟨2, ![a, 1]⟩) (hb : (⟨2, ![a, 1]⟩ : Shape).Broadcasts ⟨2, ![a, b]⟩)
    (hφ : FKind.Formats .f32) (hmax : (0xFF800000#32 : BitVec 32) = FKind.maximumf.neutral .f32 hφ)
    (hadd : (0x00000000#32 : BitVec 32) = FKind.add.neutral .f32 hφ) (r : Fin a) (k : Fin b) :
    divf
      (exp (subf s (broadcastTo ⟨2, ![a, b]⟩ (shapeCast ⟨2, ![a, 1]⟩
        (multiReduction .maximumf [(1 : Fin 2)] ⟨1, ![a]⟩ s 0xFF800000#32 hred hφ hmax) hcast) hb)))
      (broadcastTo ⟨2, ![a, b]⟩ (shapeCast ⟨2, ![a, 1]⟩
        (multiReduction .add [(1 : Fin 2)] ⟨1, ![a]⟩
          (exp (subf s (broadcastTo ⟨2, ![a, b]⟩ (shapeCast ⟨2, ![a, 1]⟩
            (multiReduction .maximumf [(1 : Fin 2)] ⟨1, ![a]⟩ s 0xFF800000#32 hred hφ hmax) hcast) hb)))
          0x00000000#32 hred hφ hadd) hcast) hb)
      (ix2 r k)
    = softmaxRow (fun k' => s (ix2 r k')) k := by
  have hmx : ∀ k' : Fin b, (broadcastTo ⟨2, ![a, b]⟩ (shapeCast ⟨2, ![a, 1]⟩
      (multiReduction .maximumf [(1 : Fin 2)] ⟨1, ![a]⟩ s 0xFF800000#32 hred hφ hmax) hcast) hb) (ix2 r k')
        = (Finset.univ : Finset (Fin b)).sup fun k'' => s (ix2 r k'') :=
    fun k' => (spread_apply _ hcast hb r k').trans (rowMax_apply s hred hφ hmax r)
  generalize (broadcastTo ⟨2, ![a, b]⟩ (shapeCast ⟨2, ![a, 1]⟩
      (multiReduction .maximumf [(1 : Fin 2)] ⟨1, ![a]⟩ s 0xFF800000#32 hred hφ hmax) hcast) hb) = MX at hmx ⊢
  have he : ∀ k' : Fin b, exp (subf s MX) (ix2 r k')
      = Ideal.exp (s (ix2 r k') - (Finset.univ : Finset (Fin b)).sup fun k'' => s (ix2 r k'')) := fun k' => by
    show Ideal.exp (s (ix2 r k') - MX (ix2 r k')) = _
    rw [hmx k']
  have hs : (broadcastTo ⟨2, ![a, b]⟩ (shapeCast ⟨2, ![a, 1]⟩
      (multiReduction .add [(1 : Fin 2)] ⟨1, ![a]⟩ (exp (subf s MX)) 0x00000000#32 hred hφ hadd) hcast) hb) (ix2 r k)
        = ∑ k' : Fin b, exp (subf s MX) (ix2 r k') :=
    (spread_apply _ hcast hb r k).trans (Cert.Lib.Keepdims.rowSum_apply (exp (subf s MX)) 0x00000000#32 hred hφ hadd r)
  show Ideal.div (exp (subf s MX) (ix2 r k)) _ = _
  rw [hs, he k]
  unfold softmaxRow
  exact congrArg (Ideal.div _) (Finset.sum_congr rfl fun k' _ => he k')

end Cert.Lib.SoftmaxRows

end
-- ==== Proof.TileAddressing.lean ====
/-
  The addressing weights computed on a tile of logits, read at an entry.

  A kernel holds the logits of `a` queries against `b` memory slots as an [a, b] tile and computes the addressing weights with
  lane reductions along the slots whose results are kept as a column [a, 1] and spread back over the `b` columns: the row maxima
  (joined with −∞) for the softmax's shift, the row sums of the exponentials for its denominator, the row sums of the
  magnitudes of the shrunk weights (joined with ε from below) for the L¹ normalisation.  Each stage of that chain is named
  here and read at entry (r, k) as the corresponding stage of `addressRow` of row r: the tile computes, row by row, the
  function of `MemoryAddressing`.  Only definitions are unfolded and sums re-indexed; no finiteness is needed.
-/
import proofs.«119920_j9637906612316_1_alg».proof.Proof.MemoryAddressing
import proofs.«119920_j9637906612316_1_alg».proof.Proof.LibSoftmaxRows

noncomputable section

namespace Cert.TileAddressing

open Idealize.ShloMosaic Idealize.ShloMosaic.ValueIdx
open Cert.MemoryAddressing Cert.Lib.SoftmaxRows Cert.Lib.Keepdims
open scoped BigOperators

variable {a b : ℕ} (S : FVec Ideal ⟨2, ![a, b]⟩ .f32)
  (hred : (⟨2, ![a, b]⟩ : Shape).Reduces [(1 : Fin 2)] ⟨1, ![a]⟩)
  (hcast : (⟨1, ![a]⟩ : Shape).ShapeCasts ⟨2, ![a, 1]⟩) (hb : (⟨2, ![a, 1]⟩ : Shape).Broadcasts ⟨2, ![a, b]⟩)
  (hφ : FKind.Formats .f32) (hmax : (0xFF800000#32 : BitVec 32) = FKind.maximumf.neutral .f32 hφ)
  (hadd : (0x00000000#32 : BitVec 32) = FKind.add.neutral .f32 hφ)

/-- The row maxima, joined with −∞, kept as a column and spread over the columns. -/
def tileShift : FVec Ideal ⟨2, ![a, b]⟩ .f32 :=
  broadcastTo ⟨2, ![a, b]⟩ (shapeCast ⟨2, ![a, 1]⟩
    (maximumf (broadcast ⟨1, ![a]⟩ (Scalar.ofBits (F := Ideal) .f32 0xFF800000#32))
      (multiReduction .maximumf [(1 : Fin 2)] ⟨1, ![a]⟩ S 0xFF800000#32 hred hφ hmax)) hcast) hb

/-- The exponentials of the shifted logits. -/
def tileExp : FVec Ideal ⟨2, ![a, b]⟩ .f32 := exp (subf S (tileShift S hred hcast hb hφ hmax))

/-- The softmax of every row. -/
def tileSoft : FVec Ideal ⟨2, ![a, b]⟩ .f32 :=
  divf (tileExp S hred hcast hb hφ hmax)
    (broadcastTo ⟨2, ![a, b]⟩ (shapeCast ⟨2, ![a, 1]⟩
      (multiReduction .add [(1 : Fin 2)] ⟨1, ![a]⟩ (tileExp S hred hcast hb hφ hmax) 0x00000000#32 hred hφ hadd) hcast) hb)

/-- The softmax weights less the threshold. -/
def tileExcess : FVec Ideal ⟨2, ![a, b]⟩ .f32 :=
  subf (tileSoft S hred hcast hb hφ hmax hadd) (broadcast ⟨2, ![a, b]⟩ (Scalar.ofBits (F := Ideal) .f32 0x3B23D70A#32))

/-- The hard shrinkage of every softmax weight. -/
def tileShrink : FVec Ideal ⟨2, ![a, b]⟩ .f32 :=
  divf
    (mulf (maximumf (tileExcess S hred hcast hb hφ hmax hadd) (broadcast ⟨2, ![a, b]⟩ (Scalar.ofBits (F := Ideal) .f32 0x00000000#32)))
      (tileSoft S hred hcast hb hφ hmax hadd))
    (addf (absf (tileExcess S hred hcast hb hφ hmax hadd)) (broadcast ⟨2, ![a, b]⟩ (Scalar.ofBits (F := Ideal) .f32 0x2B8CBCCC#32)))

/-- The addressing weights of every row: the shrunk weights over their row's L¹ norm, the norm kept away from zero by ε. -/
def tileAddress : FVec Ideal ⟨2, ![a, b]⟩ .f32 :=
  divf (tileShrink S hred hcast hb hφ hmax hadd)
    (broadcastTo ⟨2, ![a, b]⟩
      (maximumf
        (shapeCast ⟨2, ![a, 1]⟩
          (multiReduction .add [(1 : Fin 2)] ⟨1, ![a]⟩ (absf (tileShrink S hred hcast hb hφ hmax hadd)) 0x00000000#32 hred hφ hadd) hcast)
        (broadcast ⟨2, ![a, 1]⟩ (Scalar.ofBits (F := Ideal) .f32 0x2B8CBCCC#32))) hb)

/-- The spread column of row maxima reads, anywhere in row r, the shift of that row. -/
theorem tileShift_at (r : Fin a) (k : Fin b) :
    tileShift S hred hcast hb hφ hmax (ix2 r k) = shift fun q => S (ix2 r q) := by
  unfold tileShift
  refine (spread_apply _ hcast hb r k).trans ?_
  exact congrArg (max (Ideal.ofBits .f32 0xFF800000#32)) (rowMax_apply S hred hφ hmax r)

theorem tileExp_at (r : Fin a) (k : Fin b) :
    tileExp S hred hcast hb hφ hmax (ix2 r k) = Ideal.exp (S (ix2 r k) - shift fun q => S (ix2 r q)) :=
  congrArg (fun z => Ideal.exp (S (ix2 r k) - z)) (tileShift_at S hred hcast hb hφ hmax r k)

theorem tileSoft_at (r : Fin a) (k : Fin b) :
    tileSoft S hred hcast hb hφ hmax hadd (ix2 r k) = soft (fun q => S (ix2 r q)) k := by
  have hs : (broadcastTo ⟨2, ![a, b]⟩ (shapeCast ⟨2, ![a, 1]⟩
      (multiReduction .add [(1 : Fin 2)] ⟨1, ![a]⟩ (tileExp S hred hcast hb hφ hmax) 0x00000000#32 hred hφ hadd) hcast) hb) (ix2 r k)
        = ∑ k' : Fin b, Ideal.exp (S (ix2 r k') - shift fun q => S (ix2 r q)) :=
    ((spread_apply _ hcast hb r k).trans (rowSum_apply (tileExp S hred hcast hb hφ hmax) 0x00000000#32 hred hφ hadd r)).trans
      (Finset.sum_congr rfl fun k' _ => tileExp_at S hred hcast hb hφ hmax r k')
  unfold tileSoft soft
  show Ideal.div (tileExp S hred hcast hb hφ hmax (ix2 r k)) _ = _
  rw [hs, tileExp_at]

theorem tileShrink_at (r : Fin a) (k : Fin b) :
    tileShrink S hred hcast hb hφ hmax hadd (ix2 r k) = shrink (soft (fun q => S (ix2 r q)) k) := by
  unfold tileShrink tileExcess shrink mag
  show Ideal.div (max (tileSoft S hred hcast hb hφ hmax hadd (ix2 r k) - Ideal.ofBits .f32 0x3B23D70A#32) (Ideal.ofBits .f32 0x00000000#32)
      * tileSoft S hred hcast hb hφ hmax hadd (ix2 r k))
    (max (tileSoft S hred hcast hb hφ hmax hadd (ix2 r k) - Ideal.ofBits .f32 0x3B23D70A#32)
      (-(tileSoft S hred hcast hb hφ hmax hadd (ix2 r k) - Ideal.ofBits .f32 0x3B23D70A#32)) + Ideal.ofBits .f32 0x2B8CBCCC#32) = _
  rw [tileSoft_at]

/-- The tile's addressing weights at (r, k) are `addressRow` of row r of the logits, at k. -/
theorem tileAddress_at (r : Fin a) (k : Fin b) :
    tileAddress S hred hcast hb hφ hmax hadd (ix2 r k) = addressRow (fun q => S (ix2 r q)) k := by
  have hn : (broadcastTo ⟨2, ![a, b]⟩
      (maximumf
        (shapeCast ⟨2, ![a, 1]⟩
          (multiReduction .add [(1 : Fin 2)] ⟨1, ![a]⟩ (absf (tileShrink S hred hcast hb hφ hmax hadd)) 0x00000000#32 hred hφ hadd) hcast)
        (broadcast ⟨2, ![a, 1]⟩ (Scalar.ofBits (F := Ideal) .f32 0x2B8CBCCC#32))) hb) (ix2 r k)
      = max (∑ k' : Fin b, mag (shrink (soft (fun q => S (ix2 r q)) k'))) (Ideal.ofBits .f32 0x2B8CBCCC#32) := by
    refine (broadcastTo_a1_ab_apply _ hb r k).trans ?_
    refine congrArg (fun z => max z (Ideal.ofBits .f32 0x2B8CBCCC#32)) ?_
    refine (shapeCast_a_a1_apply _ hcast r 0).trans ?_
    refine (rowSum_apply (absf (tileShrink S hred hcast hb hφ hmax hadd)) 0x00000000#32 hred hφ hadd r).trans ?_
    exact Finset.sum_congr rfl fun k' _ => congrArg mag (tileShrink_at S hred hcast hb hφ hmax hadd r k')
  unfold tileAddress addressRow
  show Ideal.div (tileShrink S hred hcast hb hφ hmax hadd (ix2 r k)) _ = _
  rw [hn, tileShrink_at]

end Cert.TileAddressing

end
-- ==== Proof.KernelTile.lean ====
/-
  What the kernel's body stores for one tile of queries, entry by entry.

  The body loads a tile of 1024 queries (1024 × 256) and the whole bank (2000 × 256), forms the 1024 × 2000 logits as the
  matrix product of the tile with the bank contracted along the 256 features of both (into a zero accumulator), turns every
  row of logits into addressing weights, and multiplies the weights by the bank (again into a zero accumulator).  The first
  stored value is, at (r, k), the weight query r of the tile gives slot k; the second, at (r, c), is what query r reads in
  feature c: the two functions of `MemoryAddressing` of the tile itself.
-/
import proofs.«119920_j9637906612316_1_alg».proof.Proof.Gen.KernelIdeal.Skeleton
import proofs.«119920_j9637906612316_1_alg».proof.Proof.TileAddressing
import Idealize.ShloMosaic.Lib.Pipeline.Value

noncomputable section

namespace Cert.KernelIdeal.TileValue

open Idealize.ShloMosaic Idealize.ShloMosaic.ValueIdx
open Cert.KernelIdeal Cert.KernelIdeal.Gen
open Cert.MemoryAddressing Cert.TileAddressing
open scoped BigOperators

/-- The first stored value is the tile chain of `TileAddressing` on the tile's logits. -/
theorem weights_eq (x0 : Vec Ideal S1024x256 .f32) (w : Vec Ideal S2000x256 .f32) :
    k0_pay1 (F := Ideal) x0 w
      = tileAddress
          (matmul (φ₁ := .f32) (φ₂ := .f32) dot_S1024x256_S2000x256_S1024x2000_1_1_0_0_n_n (some .fp32)
            (shapeCast S1024x256 x0 shapeCasts_S1024x256_S1024x256) w (constant S1024x2000 .f32 0x00000000#32))
          reduces_S1024x2000_S1024 shapeCasts_S1024_S1024x1 broadcasts_S1024x1_S1024x2000 (.inl rfl) rfl rfl := rfl

/-- The weights the body stores, at query r of the tile and slot k. -/
theorem weights_at (x0 : Vec Ideal S1024x256 .f32) (w : Vec Ideal S2000x256 .f32) (r : Fin 1024) (k : Fin 2000) :
    k0_pay1 (F := Ideal) x0 w (ix2 r k) = addressing x0 w (ix2 r k) := by
  rw [weights_eq, addressing_ix2]
  refine (tileAddress_at _ _ _ _ _ _ _ r k).trans ?_
  refine congrArg (fun s => addressRow s k) (funext fun q => ?_)
  refine (Cert.Lib.DenseNT.matmul_zero_at dot_S1024x256_S2000x256_S1024x2000_1_1_0_0_n_n rfl rfl rfl rfl rfl rfl (some .fp32)
    (shapeCast S1024x256 x0 shapeCasts_S1024x256_S1024x256) w r q).trans ?_
  rw [shapeCast_self]

/-- What the body stores as read, at query r of the tile and feature c. -/
theorem read_at (x0 : Vec Ideal S1024x256 .f32) (w : Vec Ideal S2000x256 .f32) (r : Fin 1024) (c : Fin 256) :
    k0_pay2 (F := Ideal) x0 w (ix2 r c) = readout x0 w (ix2 r c) := by
  unfold k0_pay2
  refine ((Ideal.matmul_constant_zero_apply dot_S1024x2000_S2000x256_S1024x256_1_0_0_1_n_n (some .fp32) (k0_pay1 (F := Ideal) x0 w) w (ix2 r c)).trans
    (Cert.Lib.Dense.plain_sum dot_S1024x2000_S2000x256_S1024x256_1_0_0_1_n_n rfl rfl rfl rfl rfl rfl (k0_pay1 (F := Ideal) x0 w) w r c)).trans ?_
  rw [readout_ix2]
  exact Finset.sum_congr rfl fun k _ => by rw [weights_at]

end Cert.KernelIdeal.TileValue

end
-- ==== Proof.KernelArrays.lean ====
/-
  From tiles to arrays: what the two output arrays hold after the kernel's region.

  The grid has 32 points.  Point t stages rows 1024·t … 1024·t + 1023 of the queries (a 32768 × 256 array) and the whole bank,
  and writes back rows 1024·t … 1024·t + 1023 of the weights (32768 × 2000) and of what is read (32768 × 256).  A query's
  weights and what it reads depend on its own row of the queries only, so the tile's results are the rows of the whole-array
  functions `addressing` and `readout` of `MemoryAddressing`; the 32 row bands cover both output arrays, so after the
  region each holds that function of the queries and the bank as the region found them.
-/
import proofs.«119920_j9637906612316_1_alg».proof.Proof.Gen.KernelIdeal.Frame
import proofs.«119920_j9637906612316_1_alg».proof.Proof.KernelTile
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.MemoryAddressing

variable (m : (ℓ : Loc nD τ sig) → Buf (Elt Ideal) ℓ)

theorem origin : (![0, 0] : Fin 2 → Nat) = fun _ => 0 := funext fun a => by fin_cases a <;> rfl

/-- The block indices at point t: the queries and both outputs move down one band of rows per point, the bank stays. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of the tile of queries at point t is row 1024·t + r of the queries. -/
theorem tile_read (c : Dev nD) (t : Fin cfg0.N) (r : Fin 1024) (j : Fin 256) (R : Fin 32768) (hR : R.val = t.val * 1024 + r.val) :
    (iblk m c 0 t : Vec Ideal S1024x256 .f32) (ix2 r j) = (V m c main_v1 : S32768x256.Idx → EReal) (ix2 R j) := by
  obtain ⟨e0, e1, -⟩ := block_index t
  unfold iblk
  rw [View.read_apply]
  show V m c main_v1 _ = V m c main_v1 _
  congr 1
  funext a
  apply Fin.ext
  match a with
  | ⟨0, _⟩ => show win0_0.index t 0 * 1024 + 1 * r.val = R.val; rw [e0, hR]; omega
  | ⟨1, _⟩ => show win0_0.index t 1 * 256 + 1 * j.val = j.val; rw [e1]; omega

/-- The bank's block at every point is the whole bank. -/
theorem bank_read (c : Dev nD) (t : Fin cfg0.N) :
    (iblk m c 1 t : Vec Ideal S2000x256 .f32) = (V m c main_arg1 : S2000x256.Idx → EReal) := by
  obtain ⟨-, -, e0, e1, -⟩ := block_index t
  funext y
  unfold iblk
  rw [View.read_apply]
  show V m c main_arg1 _ = V m c main_arg1 _
  congr 1
  funext a
  apply Fin.ext
  match a with
  | ⟨0, _⟩ => show win0_1.index t 0 * 2000 + 1 * (y 0).val = (y 0).val; rw [e0]; omega
  | ⟨1, _⟩ => show win0_1.index t 1 * 256 + 1 * (y 1).val = (y 1).val; rw [e1]; omega

/-! ## The weights -/

/-- What point t writes back of the weights is its band of rows of `addressing` of the queries and the bank. -/
theorem weights_flushed (c : Dev nD) (t : Fin cfg0.N) :
    (dats m 0 c).flushed 2 t
      = ((cfg0.win 2).blk t).view.read (Elt Ideal) (addressing (T := 32768) (C := 256) (M := 2000) (V m c main_v1) (V m c main_arg1)) := by
  show (cfg0.win 2).cut (grid0.coords t) ((dats m 0 c).after 2 t) = _
  rw [after0_2]
  unfold out0_2
  rw [View.canon_unit_zero origin]
  simp only [View.ld_unit_zero (S := S1024x256) origin, View.ld_unit_zero (S := S2000x256) origin]
  funext y
  obtain ⟨r, k, rfl⟩ : ∃ (r : Fin 1024) (k : Fin 2000), y = ix2 r k := ⟨y 0, y 1, eq_ix2 y⟩
  have hN : cfg0.N = 32 := N_0
  have ht : t.val < 32 := hN ▸ t.isLt
  obtain ⟨-, -, -, -, e0, e1, -⟩ := block_index t
  have hemb : ((cfg0.win 2).blk t).view.emb (ix2 r k) = ix2 (⟨t.val * 1024 + r.val, by omega⟩ : Fin 32768) k := by
    funext a
    apply Fin.ext
    match a with
    | ⟨0, _⟩ => show win0_2.index t 0 * 1024 + 1 * r.val = t.val * 1024 + r.val; rw [e0]; omega
    | ⟨1, _⟩ => show win0_2.index t 1 * 2000 + 1 * k.val = k.val; rw [e1]; omega
  show k0_pay1 (iblk m c 0 t) (iblk m c 1 t) (ix2 r k)
    = addressing (T := 32768) (C := 256) (M := 2000) (V m c main_v1) (V m c main_arg1) (((cfg0.win 2).blk t).view.emb (ix2 r k))
  rw [hemb]
  refine (Cert.KernelIdeal.TileValue.weights_at (iblk m c 0 t) (iblk m c 1 t) r k).trans ?_
  rw [bank_read m c t]
  exact addressing_row (T := 1024) (T' := 32768) (C := 256) (M := 2000) (iblk m c 0 t) (V m c main_v1) (V m c main_arg1) r _
    (fun j => tile_read m c t r j _ rfl) k

/-- An index of the weights is in point t's block iff each coordinate is in the block's range on its axis. -/
theorem mem_weights_blk (t : Fin cfg0.N) (i : S32768x2000.Idx) :
    i ∈ ((cfg0.win 2).blk t).view.set ↔ ∀ a : Fin 2, win0_2.index t a * S1024x2000.size a ≤ (i a).val ∧ (i a).val < win0_2.index t a * S1024x2000.size a + S1024x2000.size a := by
  show i ∈ ((View.whole main_v2_0).slice (win0_2.rect t)).set ↔ _
  rw [View.set_slice_whole, Rect.mem_set_unit]
  exact Iff.rfl

/-- Every row of the weights is in the band of point ⌊row / 1024⌋. -/
theorem weights_cover (i : S32768x2000.Idx) :
    ∃ t : Fin cfg0.N, (cfg0.win 2).flush t = true ∧ i ∈ ((cfg0.win 2).blk t).view.set := by
  have h0 : (i 0).val < 32768 := (i 0).isLt
  have h1 : (i 1).val < 2000 := (i 1).isLt
  have hN : cfg0.N = 32 := N_0
  refine ⟨⟨(i 0).val / 1024, by rw [hN]; omega⟩, flush0_2 _, ?_⟩
  rw [mem_weights_blk]
  obtain ⟨-, -, -, -, e0, e1, -⟩ := block_index ⟨(i 0).val / 1024, by rw [hN]; omega⟩
  intro a
  match a with
  | ⟨0, _⟩ =>
    show win0_2.index _ 0 * 1024 ≤ (i 0).val ∧ (i 0).val < win0_2.index _ 0 * 1024 + 1024
    rw [e0]; show (i 0).val / 1024 * 1024 ≤ (i 0).val ∧ (i 0).val < (i 0).val / 1024 * 1024 + 1024; omega
  | ⟨1, _⟩ =>
    show win0_2.index _ 1 * 2000 ≤ (i 1).val ∧ (i 1).val < win0_2.index _ 1 * 2000 + 2000
    rw [e1]; omega

/-- The weights after the region. -/
theorem weights_final (c : Dev nD) :
    (dats m 0 c).arrAt 2 cfg0.N = addressing (T := 32768) (C := 256) (M := 2000) (V m c main_v1) (V m c main_arg1) :=
  (dats m 0 c).arrAt_eq_of_cover 2 _ (fun t _ => weights_flushed m c t) weights_cover

/-! ## What is read -/

/-- What point t writes back of the read values is its band of rows of `readout` of the queries and the bank. -/
theorem read_flushed (c : Dev nD) (t : Fin cfg0.N) :
    (dats m 0 c).flushed 3 t
      = ((cfg0.win 3).blk t).view.read (Elt Ideal) (readout (T := 32768) (C := 256) (M := 2000) (V m c main_v1) (V m c main_arg1)) := by
  show (cfg0.win 3).cut (grid0.coords t) ((dats m 0 c).after 3 t) = _
  rw [after0_3]
  unfold out0_3
  rw [View.canon_unit_zero origin]
  simp only [View.ld_unit_zero (S := S1024x256) origin, View.ld_unit_zero (S := S2000x256) origin]
  funext y
  obtain ⟨r, q, rfl⟩ : ∃ (r : Fin 1024) (q : Fin 256), y = ix2 r q := ⟨y 0, y 1, eq_ix2 y⟩
  have hN : cfg0.N = 32 := N_0
  have ht : t.val < 32 := hN ▸ t.isLt
  obtain ⟨-, -, -, -, -, -, e0, e1⟩ := block_index t
  have hemb : ((cfg0.win 3).blk t).view.emb (ix2 r q) = ix2 (⟨t.val * 1024 + r.val, by omega⟩ : Fin 32768) q := by
    funext a
    apply Fin.ext
    match a with
    | ⟨0, _⟩ => show win0_3.index t 0 * 1024 + 1 * r.val = t.val * 1024 + r.val; rw [e0]; omega
    | ⟨1, _⟩ => show win0_3.index t 1 * 256 + 1 * q.val = q.val; rw [e1]; omega
  show k0_pay2 (iblk m c 0 t) (iblk m c 1 t) (ix2 r q)
    = readout (T := 32768) (C := 256) (M := 2000) (V m c main_v1) (V m c main_arg1) (((cfg0.win 3).blk t).view.emb (ix2 r q))
  rw [hemb]
  refine (Cert.KernelIdeal.TileValue.read_at (iblk m c 0 t) (iblk m c 1 t) r q).trans ?_
  rw [bank_read m c t]
  exact readout_row (T := 1024) (T' := 32768) (C := 256) (M := 2000) (iblk m c 0 t) (V m c main_v1) (V m c main_arg1) r _
    (fun j => tile_read m c t r j _ rfl) q

theorem mem_read_blk (t : Fin cfg0.N) (i : S32768x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v2_1).slice (win0_3.rect t)).set ↔ _
  rw [View.set_slice_whole, Rect.mem_set_unit]
  exact Iff.rfl

theorem read_cover (i : S32768x256.Idx) :
    ∃ t : Fin cfg0.N, (cfg0.win 3).flush t = true ∧ i ∈ ((cfg0.win 3).blk t).view.set := by
  have h0 : (i 0).val < 32768 := (i 0).isLt
  have h1 : (i 1).val < 256 := (i 1).isLt
  have hN : cfg0.N = 32 := N_0
  refine ⟨⟨(i 0).val / 1024, by rw [hN]; omega⟩, flush0_3 _, ?_⟩
  rw [mem_read_blk]
  obtain ⟨-, -, -, -, -, -, e0, e1⟩ := block_index ⟨(i 0).val / 1024, by rw [hN]; omega⟩
  intro a
  match a with
  | ⟨0, _⟩ =>
    show win0_3.index _ 0 * 1024 ≤ (i 0).val ∧ (i 0).val < win0_3.index _ 0 * 1024 + 1024
    rw [e0]; show (i 0).val / 1024 * 1024 ≤ (i 0).val ∧ (i 0).val < (i 0).val / 1024 * 1024 + 1024; omega
  | ⟨1, _⟩ =>
    show win0_3.index _ 1 * 256 ≤ (i 1).val ∧ (i 1).val < win0_3.index _ 1 * 256 + 256
    rw [e1]; omega

/-- What is read, after the region. -/
theorem read_final (c : Dev nD) :
    (dats m 0 c).arrAt 3 cfg0.N = readout (T := 32768) (C := 256) (M := 2000) (V m c main_v1) (V m c main_arg1) :=
  (dats m 0 c).arrAt_eq_of_cover 3 _ (fun t _ => read_flushed m c t) read_cover

end Cert.KernelIdeal.ArrayValue

end
-- ==== Proof.KernelRun.lean ====
/-
  The kernel's program from end to end: its two results as functions of its two inputs.

  Before the region the program lays the input x (32 × 256 × 32 × 32) out as queries: it moves the 256 features last and
  reshapes to 32768 × 256.  After the region it reshapes what was read (32768 × 256) to 32 × 32 × 32 × 256 and moves the
  features back to the second axis, and does the same with the weights (32768 × 2000, the 2000 slots to the second axis).
  With the arrays the region leaves (`KernelArrays`) this gives each result as the layout operations applied to `readout`
  and `addressing` of the queries and the bank.
-/
import proofs.«119920_j9637906612316_1_alg».proof.Proof.Gen.KernelIdeal.Frame
import proofs.«119920_j9637906612316_1_alg».proof.Proof.KernelArrays
import Idealize.ShloMosaic.Lib.StableHlo.Run
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.KernelIdeal.ArrayValue Cert.MemoryAddressing

/-- The input laid out as queries: features last, then 32768 rows of 256. -/
def queriesOf (x : S32x256x32x32.Idx → EReal) : S32768x256.Idx → EReal :=
  shapeCast S32768x256 (transpose S32x32x32x256 [0, 2, 3, 1] x transposes_S32x256x32x32_S32x32x32x256_0_2_3_1)
    shapeCasts_S32x32x32x256_S32768x256

/-- The first result: what every query reads, laid back out with the features second. -/
def readResult (x : S32x256x32x32.Idx → EReal) (w : S2000x256.Idx → EReal) : S32x256x32x32.Idx → EReal :=
  transpose S32x256x32x32 [0, 3, 1, 2]
    (shapeCast S32x32x32x256 (readout (T := 32768) (C := 256) (M := 2000) (queriesOf x) w) shapeCasts_S32768x256_S32x32x32x256)
    transposes_S32x32x32x256_S32x256x32x32_0_3_1_2

/-- The second result: every query's weights, laid out with the slots second. -/
def weightsResult (x : S32x256x32x32.Idx → EReal) (w : S2000x256.Idx → EReal) : S32x2000x32x32.Idx → EReal :=
  transpose S32x2000x32x32 [0, 3, 1, 2]
    (shapeCast S32x32x32x2000 (addressing (T := 32768) (C := 256) (M := 2000) (queriesOf x) w) shapeCasts_S32768x2000_S32x32x32x2000)
    transposes_S32x32x32x2000_S32x2000x32x32_0_3_1_2

variable (m : (ℓ : Loc nD τ sig) → Buf (Elt Ideal) ℓ) (ρ : Dev nD → PrngReg)

/-- The queries as the region finds them. -/
theorem queries_eq (c : Dev nD) :
    (V m c main_v1 : S32768x256.Idx → EReal) = queriesOf (m ((c : Thread nD τ).loc main_arg0)) := by
  show StableHlo.after hostOps0 (fun b => m (c, b)) (Proc.devRef .tc main_v1) = _
  after_results
  rfl

/-- What the lines after the region leave in the first result. -/
theorem read_result (c : Dev nD) :
    Pipeline.afterTail₀ cfgs (dats m) 0 (V0 m) [hostOps1] c main_v4
      = readResult (m ((c : Thread nD τ).loc main_arg0)) (m ((c : Thread nD τ).loc main_arg1)) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v2_1)
      = readout (T := 32768) (C := 256) (M := 2000) (queriesOf (m ((c : Thread nD τ).loc main_arg0))) (m ((c : Thread nD τ).loc main_arg1)) from
    ((Pipeline.withArrays_arr spec0 launch0.win.arr_inj c _ _ 3).trans (read_final m c)).trans
      (by rw [queries_eq m c, V_main_arg1 m c])]
  rfl

/-- What the lines after the region leave in the second result. -/
theorem weights_result (c : Dev nD) :
    Pipeline.afterTail₀ cfgs (dats m) 0 (V0 m) [hostOps1] c main_v6
      = weightsResult (m ((c : Thread nD τ).loc main_arg0)) (m ((c : Thread nD τ).loc main_arg1)) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v2_0)
      = addressing (T := 32768) (C := 256) (M := 2000) (queriesOf (m ((c : Thread nD τ).loc main_arg0))) (m ((c : Thread nD τ).loc main_arg1)) from
    ((Pipeline.withArrays_arr spec0 launch0.win.arr_inj c _ _ 2).trans (weights_final m c)).trans
      (by rw [queries_eq m c, V_main_arg1 m c])]
  rfl

/-- The kernel's program runs; its results are the two functions of its inputs, and the inputs are kept. -/
theorem run : θ_run defs (onTc (τ := τ) (main (F := Ideal))) ⟨m, fun _ => 0, ρ⟩ fun r => ∀ c : Dev nD,
      r.2.mem ((c : Thread nD τ).loc main_v4) = readResult (m ((c : Thread nD τ).loc main_arg0)) (m ((c : Thread nD τ).loc main_arg1))
      ∧ r.2.mem ((c : Thread nD τ).loc main_v6) = weightsResult (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (read_result m c),
     ((h c).2 main_v6 (Pipeline.mem_restRefs_of main_v6 (by decide) (by decide))).trans (weights_result m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.RunValue

end
-- ==== Proof.LibHostRowMax.lean ====
/-
  The host's maximum of a matrix along its second axis, on the extended reals, read at a row.

  `stablehlo.reduce` with a `maximum` body over axis 1 of an [a, b] array, started from −∞ (the initial value's word is the
  bottom of the extended reals), is at row i the supremum of the entries (i, k): the rank-2 companion of the lane reduction
  `jnp.max(x, axis=-1)` inside a kernel.  No finiteness is needed.
-/
import proofs.«119920_j9637906612316_1_alg».proof.Proof.LibMinMaxInf
import Idealize.ShloMosaic.Lib.ValueIdx

noncomputable section

namespace Cert.Lib.HostRowMax

open Idealize.ShloMosaic Idealize.ShloMosaic.ValueIdx

/-- The host's maximum of an [a, b] array along its second axis, started from −∞, is at row i the supremum of that row. -/
theorem hostRowMax_apply {a b : ℕ} {u : Shape} (x : FVec Ideal ⟨2, ![a, b]⟩ .f32) (init : FVec Ideal u .f32)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel)
    (hinit : init (Shape.Idx.first hu) = Ideal.ofBits .f32 0xFF800000#32) (i : Fin a) :
    Host.reduce (FloatOps.maximumf (F := Ideal) (φ := .f32)) x init h' hu (ix1 i)
      = (Finset.univ : Finset (Fin b)).sup fun k => x (ix2 i k) := by
  refine (Cert.Lib.MinMaxInf.hostReduce_maximumf_single x init h' h hu (ix1 i)).trans ?_
  rw [hinit, Cert.Lib.MinMaxInf.ofBits_negInf_f32, bot_sup_eq]
  exact Finset.sup_congr rfl fun k _ => congrArg x (funext fun c => Fin.ext (by
    match c with
    | ⟨0, _⟩ => rfl
    | ⟨1, _⟩ => rfl))

end Cert.Lib.HostRowMax

end
-- ==== Proof.ReferenceValue.lean ====
/-
  The reference computes the same two functions of the queries and the bank.

  Its queries are the 32768 × 256 array it forms from the input by the same transposition and reshaping as the kernel's
  program; it multiplies them by the transposed bank (logit (R, q) = ∑ j, queries(R, j) · bank(q, j): the product against the
  transpose is the row-against-row product), takes the row maxima from −∞ and joins them with −∞ again, exponentiates the
  shifted logits, divides by the row sums (each started from the word of zero, which adds nothing), shrinks, normalises by the
  row sums of magnitudes joined with ε, and multiplies the weights by the bank.  Read one operation at a time at entry (R, k),
  this is `addressing` and `readout` of `MemoryAddressing` at the reference's queries and the bank.
-/
import proofs.«119920_j9637906612316_1_alg».proof.Proof.Gen.ReferenceIdeal.Read
import proofs.«119920_j9637906612316_1_alg».proof.Proof.MemoryAddressing
import proofs.«119920_j9637906612316_1_alg».proof.Proof.LibHostRowMax

noncomputable section

namespace Cert.ReferenceIdeal.RefValue

open Cert.ReferenceIdeal Cert.ReferenceIdeal.Gen Cert.ReferenceIdeal.Read
open Idealize.ShloMosaic Idealize.ShloMosaic.ValueIdx
open Cert.MemoryAddressing
open Cert.Lib.DenseNT (rowRowDot)
open scoped BigOperators

variable (x0 : (⟨S32x256x32x32, .f32⟩ : BufTy).Contents (Elt Ideal)) (x1 : (⟨S2000x256, .f32⟩ : BufTy).Contents (Elt Ideal))

/-- The logits of query R: row R of the queries against each row of the bank. -/
abbrev logits (R : Fin 32768) : Fin 2000 → EReal := fun q => rowRowDot (M := 32768) (K := 256) (N := 2000) (val_main_v1 (F := Ideal) x0) x1 R q

theorem logits_at (R : Fin 32768) (q : Fin 2000) : val_main_v3 (F := Ideal) x0 x1 (ix2 R q) = logits x0 x1 R q := by
  rw [val_main_v3_apply]
  refine Finset.sum_congr rfl fun j _ => ?_
  rw [val_main_v2_apply]
  have el : lidx_main_v3 (ix2 R q) j = ix2 R j := funext fun a => Fin.ext (by match a with | ⟨0, _⟩ => rfl | ⟨1, _⟩ => rfl)
  have er : idx_main_v2 (ridx_main_v3 (ix2 R q) j) = ix2 q j := funext fun a => Fin.ext (by match a with | ⟨0, _⟩ => rfl | ⟨1, _⟩ => rfl)
  rw [el, er]

theorem shift_at (R : Fin 32768) (k : Fin 2000) : val_main_v8 (F := Ideal) x0 x1 (ix2 R k) = shift (logits x0 x1 R) := by
  rw [val_main_v8_apply, val_main_v7_apply, val_main_v6_apply, val_main_v5_apply, val_main_cst_0_apply]
  have e : idx_main_v7 (idx_main_v8 (ix2 R k)) = ix1 R := funext fun a => Fin.ext (by match a with | ⟨0, _⟩ => rfl)
  rw [e]
  have hm : val_main_v4 (F := Ideal) x0 x1 (ix1 R) = (Finset.univ : Finset (Fin 2000)).sup fun q => val_main_v3 (F := Ideal) x0 x1 (ix2 R q) := by
    unfold val_main_v4
    exact Cert.Lib.HostRowMax.hostRowMax_apply (val_main_v3 (F := Ideal) x0 x1) (val_main_cst (F := Ideal)) reducesTo_S32768x2000_S32768_d1 (by decide) h_S_ rfl R
  rw [hm]
  unfold shift
  refine congrArg (max (Ideal.ofBits .f32 0xFF800000#32)) (Finset.sup_congr rfl fun q _ => logits_at x0 x1 R q)

theorem exp_at (R : Fin 32768) (k : Fin 2000) :
    val_main_v10 (F := Ideal) x0 x1 (ix2 R k) = Ideal.exp (logits x0 x1 R k - shift (logits x0 x1 R)) := by
  rw [val_main_v10_apply, val_main_v9_apply, logits_at, shift_at]
  rfl

theorem soft_at (R : Fin 32768) (k : Fin 2000) : val_main_v14 (F := Ideal) x0 x1 (ix2 R k) = soft (logits x0 x1 R) k := by
  rw [val_main_v14_apply, val_main_v13_apply, val_main_v12_apply, val_main_v11_apply, val_main_cst_1_apply, exp_at]
  have e : ∀ k' : Fin 2000, idx_main_v11 (idx_main_v12 (idx_main_v13 (ix2 R k))) k' = ix2 R k' := fun k' =>
    funext fun a => Fin.ext (by match a with | ⟨0, _⟩ => rfl | ⟨1, _⟩ => rfl)
  simp only [e, exp_at]
  show Ideal.div _ (Ideal.ofBits .f32 0x00000000#32 + _) = _
  rw [Ideal.ofBits_zero_f32, zero_add]
  rfl

theorem shrink_at (R : Fin 32768) (k : Fin 2000) : val_main_v22 (F := Ideal) x0 x1 (ix2 R k) = shrink (soft (logits x0 x1 R) k) := by
  rw [val_main_v22_apply, val_main_v18_apply, val_main_v17_apply, val_main_v21_apply, val_main_v19_apply, val_main_v16_apply,
    val_main_v15_apply, val_main_cst_2_apply, val_main_call0_v0_apply, val_main_call0_cst_apply, val_main_v20_apply,
    val_main_cst_3_apply, soft_at]
  rfl

theorem norm_at (R : Fin 32768) (k : Fin 2000) :
    val_main_v28 (F := Ideal) x0 x1 (ix2 R k)
      = max (∑ k' : Fin 2000, mag (shrink (soft (logits x0 x1 R) k'))) (Ideal.ofBits .f32 0x2B8CBCCC#32) := by
  rw [val_main_v28_apply, val_main_v27_apply, val_main_v26_apply, val_main_cst_5_apply, val_main_v25_apply, val_main_v24_apply,
    val_main_cst_4_apply]
  have e : ∀ k' : Fin 2000, idx_main_v24 (idx_main_v25 (idx_main_v28 (ix2 R k))) k' = ix2 R k' := fun k' =>
    funext fun a => Fin.ext (by match a with | ⟨0, _⟩ => rfl | ⟨1, _⟩ => rfl)
  simp only [e, val_main_v23_apply, shrink_at]
  show max (Ideal.ofBits .f32 0x00000000#32 + _) _ = _
  rw [Ideal.ofBits_zero_f32, zero_add]
  rfl

/-- The reference's weights are `addressing` of its queries and the bank. -/
theorem weights_eq : val_main_v29 (F := Ideal) x0 x1 = addressing (T := 32768) (C := 256) (M := 2000) (val_main_v1 (F := Ideal) x0) x1 := by
  funext i
  obtain ⟨R, k, rfl⟩ : ∃ (R : Fin 32768) (k : Fin 2000), i = ix2 R k := ⟨i 0, i 1, eq_ix2 i⟩
  rw [val_main_v29_apply, shrink_at, norm_at]
  rfl

/-- What the reference reads is `readout` of its queries and the bank. -/
theorem read_eq : val_main_v30 (F := Ideal) x0 x1 = readout (T := 32768) (C := 256) (M := 2000) (val_main_v1 (F := Ideal) x0) x1 := by
  funext i
  obtain ⟨R, c, rfl⟩ : ∃ (R : Fin 32768) (c : Fin 256), i = ix2 R c := ⟨i 0, i 1, eq_ix2 i⟩
  rw [val_main_v30_apply, readout_ix2, weights_eq]
  refine Finset.sum_congr rfl fun k _ => ?_
  have el : lidx_main_v30 (ix2 R c) k = ix2 R k := funext fun a => Fin.ext (by match a with | ⟨0, _⟩ => rfl | ⟨1, _⟩ => rfl)
  have er : ridx_main_v30 (ix2 R c) k = ix2 k c := funext fun a => Fin.ext (by match a with | ⟨0, _⟩ => rfl | ⟨1, _⟩ => rfl)
  rw [el, er]

end Cert.ReferenceIdeal.RefValue

end
-- ==== Proof.lean ====
/-
  A memory bank of 2000 slots of 256 features is addressed by the 32768 feature vectors of a 32 × 256 × 32 × 32 input: each
  vector's inner products with the slots go through a softmax, a hard shrinkage and an L¹ normalisation, and the vector is
  replaced by the bank's rows averaged with those weights.  The kernel does this for 1024 vectors per grid point, with the bank
  resident; the reference does it for all 32768 at once, multiplying by the transposed bank.

  Both programs, read on the extended reals, compute the two functions `readout` and `addressing` of `MemoryAddressing` of the
  same queries (the input with its features moved last, as 32768 rows) and the same bank, and lay the results out by the same
  reshaping and transposition: a matrix product into a zero accumulator and the host's dot product are the same sums, the
  product against the transposed bank is the row-against-row product, a lane reduction and the host's reduction are the same
  supremum or sum, and a row of queries determines its own weights, so tiles of 1024 rows give the rows of the whole.  No law
  that fails at the infinities is used, so the inputs' finiteness is not needed for the values; the pass that idealises the
  kernel rewrote nothing, so that conjunct is `True`.
-/
import proofs.«119920_j9637906612316_1_alg».proof.Defs
import proofs.«119920_j9637906612316_1_alg».proof.Proof.Gen.Kernel
import proofs.«119920_j9637906612316_1_alg».proof.Proof.Gen.Kernel.Skeleton
import proofs.«119920_j9637906612316_1_alg».proof.Proof.Gen.Kernel.Launch
import proofs.«119920_j9637906612316_1_alg».proof.Proof.Gen.Kernel.Points
import proofs.«119920_j9637906612316_1_alg».proof.Proof.Gen.Kernel.Frame
import proofs.«119920_j9637906612316_1_alg».proof.Proof.Gen.KernelIdeal
import proofs.«119920_j9637906612316_1_alg».proof.Proof.Gen.KernelIdeal.Skeleton
import proofs.«119920_j9637906612316_1_alg».proof.Proof.Gen.KernelIdeal.Launch
import proofs.«119920_j9637906612316_1_alg».proof.Proof.Gen.KernelIdeal.Points
import proofs.«119920_j9637906612316_1_alg».proof.Proof.Gen.KernelIdeal.Frame
import proofs.«119920_j9637906612316_1_alg».proof.Proof.Gen.ReferenceIdeal
import proofs.«119920_j9637906612316_1_alg».proof.Proof.Gen.ReferenceIdeal.Run
import proofs.«119920_j9637906612316_1_alg».proof.Proof.Gen.ReferenceIdeal.Read
import proofs.«119920_j9637906612316_1_alg».proof.Proof.Gen.Pre_finite_inputs
import proofs.«119920_j9637906612316_1_alg».proof.Proof.KernelRun
import proofs.«119920_j9637906612316_1_alg».proof.Proof.ReferenceValue
import Idealize.ShloMosaic.Adequacy
import Idealize.ShloMosaic.Init

noncomputable section

namespace Cert.Proof

open Idealize.ShloMosaic Idealize.SL.Sem
open Cert.KernelIdeal.RunValue (readResult weightsResult)

/-- The reference's first result is the kernel program's function of the inputs: what it reads is `readout` of the same
    queries, and the layout operations after it are the same. -/
theorem ref_read (x0 : (⟨Cert.ReferenceIdeal.S32x256x32x32, .f32⟩ : BufTy).Contents (Elt Ideal))
    (x1 : (⟨Cert.ReferenceIdeal.S2000x256, .f32⟩ : BufTy).Contents (Elt Ideal)) :
    Cert.ReferenceIdeal.Read.val_main_v32 (F := Ideal) x0 x1 = readResult x0 x1 := by
  unfold Cert.ReferenceIdeal.Read.val_main_v32 Cert.ReferenceIdeal.Read.val_main_v31
  rw [Cert.ReferenceIdeal.RefValue.read_eq]
  rfl

/-- The reference's second result is the kernel program's function of the inputs. -/
theorem ref_weights (x0 : (⟨Cert.ReferenceIdeal.S32x256x32x32, .f32⟩ : BufTy).Contents (Elt Ideal))
    (x1 : (⟨Cert.ReferenceIdeal.S2000x256, .f32⟩ : BufTy).Contents (Elt Ideal)) :
    Cert.ReferenceIdeal.Read.val_main_v34 (F := Ideal) x0 x1 = weightsResult x0 x1 := by
  unfold Cert.ReferenceIdeal.Read.val_main_v34 Cert.ReferenceIdeal.Read.val_main_v33
  rw [Cert.ReferenceIdeal.RefValue.weights_eq]
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the input and the bank both programs end with `readResult` and `weightsResult` of them. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v32_eq, ref_read, (hagree c).1, (hagree c).2]
  · rw [Cert.ReferenceIdeal.Read.val_main_v34_eq, ref_weights, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
